-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x16 : Shape := ⟨3, ![4096, 200, 16]⟩
abbrev S100000x16 : Shape := ⟨2, ![100000, 16]⟩
abbrev S4096 : Shape := ⟨1, ![4096]⟩
abbrev S_ : Shape := ⟨0, ![]⟩

class Facts : Prop where
  bcast_S_S4096x200x16 : S_.BroadcastsInDim S4096x200x16 (![] : Fin 0 → Fin S4096x200x16.rank)
  reducesTo_S4096x200x16_S_d0_1_2 : S4096x200x16.ReducesTo [0, 1, 2] S_
  h_S_ : 0 < S_.numel
  bcast_S_S100000x16 : S_.BroadcastsInDim S100000x16 (![] : Fin 0 → Fin S100000x16.rank)
  reducesTo_S100000x16_S_d0_1 : S100000x16.ReducesTo [0, 1] S_

variable [Facts]

def fn {F : FTy → Type} [FloatOps F] (main_arg0 : FVec F S4096x200x16 .f32) (main_arg1 : FVec F S100000x16 .f32) (main_arg2 : FVec F S100000x16 .f32) (main_arg3 : IVec S4096 32) : IVec S_ 1 :=
  let main_v0 : FVec F S4096x200x16 .f32 := Host.absf main_arg0
  let main_cst : FVec F S_ .f32 := constant S_ .f32 0x7F800000#32
  let main_v1 : FVec F S4096x200x16 .f32 := broadcastInDim S4096x200x16 ![] bcast_S_S4096x200x16 main_cst
  let main_v2 : IVec S4096x200x16 1 := cmpf .olt main_v0 main_v1
  let main_c : IVec S_ 1 := constantI S_ 1 1#1
  let main_v3 : IVec S_ 1 := (fun x v => Host.reduce IntOp.andi x v reducesTo_S4096x200x16_S_d0_1_2 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S100000x16 .f32 := Host.absf main_arg2
  let main_cst_2 : FVec F S_ .f32 := constant S_ .f32 0x7F800000#32
  let main_v10 : FVec F S100000x16 .f32 := broadcastInDim S100000x16 ![] bcast_S_S100000x16 main_cst_2
  let main_v11 : IVec S100000x16 1 := cmpf .olt main_v9 main_v10
  let main_c_3 : IVec S_ 1 := constantI S_ 1 1#1
  let main_v12 : IVec S_ 1 := (fun x v => Host.reduce IntOp.andi x v reducesTo_S100000x16_S_d0_1 h_S_) main_v11 main_c_3
  let main_v13 : IVec S_ 1 := andi main_v8 main_v12
  main_v13
-- ==== Kernel.lean ====
abbrev S4096x200x16 : Shape := ⟨3, ![4096, 200, 16]⟩
abbrev S100000x16 : Shape := ⟨2, ![100000, 16]⟩
abbrev S4096 : Shape := ⟨1, ![4096]⟩
abbrev S_ : Shape := ⟨0, ![]⟩
abbrev S4096x1 : Shape := ⟨2, ![4096, 1]⟩
abbrev S4096x16 : Shape := ⟨2, ![4096, 16]⟩
abbrev S4096x3200 : Shape := ⟨2, ![4096, 3200]⟩
abbrev S1024x3200 : Shape := ⟨2, ![1024, 3200]⟩
abbrev S1024x16 : Shape := ⟨2, ![1024, 16]⟩

abbrev nBuf : Space → Nat
  | .hbm => 25
  | .vmem => 8
  | .smem => 0
  | _ => 0

abbrev bufTy : (tb : Table) → Fin (tcTables nBuf tb) → BufTy
  | .hbm, ⟨0, _⟩ => ⟨S4096x200x16, .f32⟩
  | .hbm, ⟨1, _⟩ => ⟨S100000x16, .f32⟩
  | .hbm, ⟨2, _⟩ => ⟨S100000x16, .f32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S4096x16, .f32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x16, .f32⟩
  | .hbm, ⟨22, _⟩ => ⟨S4096x3200, .f32⟩
  | .hbm, ⟨23, _⟩ => ⟨S4096x3200, .f32⟩
  | .hbm, ⟨24, _⟩ => ⟨S4096x200x16, .f32⟩
  | .local _ .vmem, ⟨0, _⟩ => ⟨S1024x3200, .f32⟩
  | .local _ .vmem, ⟨1, _⟩ => ⟨S1024x3200, .f32⟩
  | .local _ .vmem, ⟨2, _⟩ => ⟨S1024x16, .f32⟩
  | .local _ .vmem, ⟨3, _⟩ => ⟨S1024x16, .f32⟩
  | .local _ .vmem, ⟨4, _⟩ => ⟨S1024x16, .f32⟩
  | .local _ .vmem, ⟨5, _⟩ => ⟨S1024x16, .f32⟩
  | .local _ .vmem, ⟨6, _⟩ => ⟨S1024x3200, .f32⟩
  | .local _ .vmem, ⟨7, _⟩ => ⟨S1024x3200, .f32⟩
  | _, _ => ⟨S4096x200x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x200x16_S4096x3200 : S4096x200x16.ShapeCasts S4096x3200
  inb_S1024x3200_S1024x3200_0_0 : ∀ a, (![0, 0] : Fin 2 → Nat) a + S1024x3200.size a ≤ S1024x3200.size a
  h_S1024x3200 : 0 < S1024x3200.numel
  shapeCasts_S1024x3200_S1024x3200 : S1024x3200.ShapeCasts S1024x3200
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  concatenates_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x16_S1024x3200_d1 : Shape.Concatenates (S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: S1024x16 :: []) S1024x3200 1
  shapeCasts_S4096x3200_S4096x200x16 : S4096x3200.ShapeCasts S4096x200x16
  gather_S100000x16_S4096x1_S4096x16_1_0_n_n_0_1_116_wf : GatherDims.WF S100000x16 S4096x1 S4096x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3200.size a ≤ S4096x3200.size a
  hwx0_0 : ∀ i : grid0.Coords, EltTy.bits .f32 = 32 ∨ (Rect.block (s := S4096x3200) S1024x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S4096x16.size a
  hwx0_2 : ∀ i : grid0.Coords, EltTy.bits .f32 = 32 ∨ (Rect.block (s := S4096x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3200.size a ≤ S4096x3200.size a
  hwx0_3 : ∀ i : grid0.Coords, EltTy.bits .f32 = 32 ∨ (Rect.block (s := S4096x3200) S1024x3200.size (cc0_transform_3 i) (hinb0_3 i)).WholeWords (EltTy.packing .f32)

variable [Facts₀]

def gather_S100000x16_S4096x1_S4096x16_1_0_n_n_0_1_116 : GatherDims S100000x16 S4096x1 S4096x16 where
  offsetDims := [1]
  collapsedSliceDims := [0]
  operandBatchingDims := []
  startIndicesBatchingDims := []
  startIndexMap := [0]
  indexVectorDim := 1
  sliceSizes := ![1, 16]
  wf := gather_S100000x16_S4096x1_S4096x16_1_0_n_n_0_1_116_wf

abbrev win0_0 : Pipeline.Window sig grid0 :=
  Pipeline.Window.ofSpec (Memref.whole main_v14) S1024x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x3200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x200x16 : Shape := ⟨3, ![4096, 200, 16]⟩
abbrev S100000x16 : Shape := ⟨2, ![100000, 16]⟩
abbrev S4096 : Shape := ⟨1, ![4096]⟩
abbrev S_ : Shape := ⟨0, ![]⟩
abbrev S4096x1 : Shape := ⟨2, ![4096, 1]⟩
abbrev S4096x16 : Shape := ⟨2, ![4096, 16]⟩
abbrev S4096x1x16 : Shape := ⟨3, ![4096, 1, 16]⟩

abbrev nBuf : Space → Nat
  | .hbm => 49
  | .vmem => 0
  | .smem => 0
  | _ => 0

abbrev bufTy : (tb : Table) → Fin (tcTables nBuf tb) → BufTy
  | .hbm, ⟨0, _⟩ => ⟨S4096x200x16, .f32⟩
  | .hbm, ⟨1, _⟩ => ⟨S100000x16, .f32⟩
  | .hbm, ⟨2, _⟩ => ⟨S100000x16, .f32⟩
  | .hbm, ⟨3, _⟩ => ⟨S4096, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x200x16, .f32⟩
  | .hbm, ⟨8, _⟩ => ⟨S4096x200x16, .f32⟩
  | .hbm, ⟨9, _⟩ => ⟨S_, .f32⟩
  | .hbm, ⟨10, _⟩ => ⟨S4096x200x16, .f32⟩
  | .hbm, ⟨11, _⟩ => ⟨S4096x200x16, .f32⟩
  | .hbm, ⟨12, _⟩ => ⟨S_, .f32⟩
  | .hbm, ⟨13, _⟩ => ⟨S4096x200x16, .f32⟩
  | .hbm, ⟨14, _⟩ => ⟨S4096x200x16, .f32⟩
  | .hbm, ⟨15, _⟩ => ⟨S4096x200x16, .f32⟩
  | .hbm, ⟨16, _⟩ => ⟨S4096x200x16, .f32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S4096x16, .f32⟩
  | .hbm, ⟨26, _⟩ => ⟨S4096x1x16, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x16, .f32⟩
  | .hbm, ⟨36, _⟩ => ⟨S4096x1x16, .f32⟩
  | .hbm, ⟨37, _⟩ => ⟨S4096x200x16, .f32⟩
  | .hbm, ⟨38, _⟩ => ⟨S4096x200x16, .f32⟩
  | .hbm, ⟨39, _⟩ => ⟨S4096x200x16, .f32⟩
  | .hbm, ⟨40, _⟩ => ⟨S4096x200x16, .f32⟩
  | .hbm, ⟨41, _⟩ => ⟨S4096x200x16, .f32⟩
  | .hbm, ⟨42, _⟩ => ⟨S4096x200x16, .f32⟩
  | .hbm, ⟨43, _⟩ => ⟨S_, .f32⟩
  | .hbm, ⟨44, _⟩ => ⟨S4096x200x16, .f32⟩
  | .hbm, ⟨45, _⟩ => ⟨S4096x200x16, .f32⟩
  | .hbm, ⟨46, _⟩ => ⟨S_, .f32⟩
  | .hbm, ⟨47, _⟩ => ⟨S4096x200x16, .f32⟩
  | .hbm, ⟨48, _⟩ => ⟨S4096x200x16, .f32⟩
  | _, _ => ⟨S4096x200x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_cst_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  bcast_S_S4096x200x16 : S_.BroadcastsInDim S4096x200x16 (![] : Fin 0 → Fin S4096x200x16.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x16_S4096x1x16_0_2 : S4096x16.BroadcastsInDim S4096x1x16 (![0, 2] : Fin 2 → Fin S4096x1x16.rank)
  bcast_S4096x1x16_S4096x200x16_0_1_2 : S4096x1x16.BroadcastsInDim S4096x200x16 (![0, 1, 2] : Fin 3 → Fin S4096x200x16.rank)
  gather_S100000x16_S4096x1_S4096x16_1_0_n_n_0_1_116_wf : GatherDims.WF S100000x16 S4096x1 S4096x16 [1] [0] [] [0] [] 1 ![1, 16]

variable [Facts₀]

def gather_S100000x16_S4096x1_S4096x16_1_0_n_n_0_1_116 : GatherDims S100000x16 S4096x1 S4096x16 where
  offsetDims := [1]
  collapsedSliceDims := [0]
  operandBatchingDims := []
  startIndicesBatchingDims := []
  startIndexMap := [0]
  indexVectorDim := 1
  sliceSizes := ![1, 16]
  wf := gather_S100000x16_S4096x1_S4096x16_1_0_n_n_0_1_116_wf

class Facts : Prop extends Facts₀ where

variable [Facts]
-- ==== Proof.Logit.lean ====
/-
  The arithmetic of the certificate, over the extended reals and over no program.

  Both programs clamp a probability into the closed interval between the two single-precision numbers nearest
  1e-7 and 1 - 1e-7. Those two numbers are dyadic rationals strictly between 0 and 1, so whatever extended real
  the input is (a real, +inf or -inf), the clamped value is a real number p with 0 < p < 1. On such a p the
  logit has two spellings: log p - log (1 + (0 - p)), and log (p / (1 - p)). They agree because the logarithm of
  a quotient of positive reals is the difference of the logarithms. Nothing here needs the inputs to be finite.

  The result of the whole computation, element (b, s, h) of a [4096, 200, 16] array, is the logistic function of
  logit(clamp(probs(b, s, h))) * scale(b, h) + bias(b, h), where scale and bias are [4096, 16] arrays (the rows
  of two tables picked per batch element).
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Logit

/-- The lower clamp bound, the single-precision number nearest 1e-7. -/
abbrev lo : EReal := Ideal.ofBits .f32 0x33D6BF95#32
/-- The upper clamp bound, the single-precision number nearest 1 - 1e-7, which is 1 - 2^-23. -/
abbrev hi : EReal := Ideal.ofBits .f32 0x3F7FFFFE#32
/-- The pattern of 1.0. -/
abbrev one : EReal := Ideal.ofBits .f32 0x3F800000#32
/-- The pattern of 0.0. -/
abbrev zero : EReal := Ideal.ofBits .f32 0x00000000#32

/-- The lower bound is the dyadic rational 14073749 / 2^47. -/
theorem lo_eq : lo = ((14073749 / 2 ^ 47 : ℝ) : EReal) := by
  simp [lo, Ideal.ofBits, Ideal.ieee, -EReal.coe_mul]
  norm_num

/-- The upper bound is the dyadic rational 16777214 / 2^24. -/
theorem hi_eq : hi = ((16777214 / 2 ^ 24 : ℝ) : EReal) := by
  simp [hi, Ideal.ofBits, Ideal.ieee, -EReal.coe_mul]
  norm_num

/-- The pattern of 1.0 is 1. -/
theorem one_eq : one = ((1 : ℝ) : EReal) := by
  simp [one, Ideal.ofBits, Ideal.ieee, -EReal.coe_mul]
  norm_num

/-- The pattern of 1.0 is the extended real 1. -/
theorem one_eq' : one = 1 := by rw [one_eq, EReal.coe_one]

/-- The pattern of 0.0 is 0. -/
theorem zero_eq : zero = 0 := Ideal.ofBits_zero_f32

/-- Clamping into [lo, hi]: first from below, then from above. -/
abbrev clip (x : EReal) : EReal := min hi (max lo x)

/-- Whatever extended real goes in, the clamped value is a real number strictly between 0 and 1. -/
theorem clip_real (x : EReal) : ∃ p : ℝ, clip x = (p : EReal) ∧ 0 < p ∧ p < 1 := by
  have hlo : (0 : ℝ) < 14073749 / 2 ^ 47 := by norm_num
  have hhi : (16777214 / 2 ^ 24 : ℝ) < 1 := by norm_num
  have hle : (14073749 / 2 ^ 47 : ℝ) ≤ 16777214 / 2 ^ 24 := by norm_num
  have h1 : ((14073749 / 2 ^ 47 : ℝ) : EReal) ≤ clip x := by
    show _ ≤ min hi (max lo x)
    rw [lo_eq, hi_eq]
    exact le_min (EReal.coe_le_coe_iff.2 hle) (le_max_left _ _)
  have h2 : clip x ≤ ((16777214 / 2 ^ 24 : ℝ) : EReal) := by
    show min hi (max lo x) ≤ _
    rw [hi_eq]
    exact min_le_left _ _
  have hne_top : clip x ≠ ⊤ := ne_top_of_le_ne_top (EReal.coe_ne_top _) h2
  have hne_bot : clip x ≠ ⊥ := ne_bot_of_le_ne_bot (EReal.coe_ne_bot _) h1
  lift clip x to ℝ using ⟨hne_top, hne_bot⟩ with p hp
  refine ⟨p, rfl, ?_, ?_⟩
  · exact lt_of_lt_of_le hlo (EReal.coe_le_coe_iff.1 h1)
  · exact lt_of_le_of_lt (EReal.coe_le_coe_iff.1 h2) hhi

/-- On a real p strictly between 0 and 1 the two spellings of the logit agree: the difference of the logarithms
    of p and of 1 + (0 - p), and the logarithm of the quotient p / (1 - p). -/
theorem logit_real (p : ℝ) (h0 : 0 < p) (h1 : p < 1) :
    Ideal.log (p : EReal) - Ideal.log1p (zero - (p : EReal)) = Ideal.log (Ideal.div (p : EReal) (one - (p : EReal))) := by
  have hq : 0 < 1 - p := by linarith
  have hq' : (1 - p) ≠ 0 := ne_of_gt hq
  have hd : 0 < p / (1 - p) := div_pos h0 hq
  rw [zero_eq, one_eq, Ideal.log1p]
  rw [show (0 : EReal) - (p : EReal) = ((-p : ℝ) : EReal) by rw [zero_sub, EReal.coe_neg]]
  rw [show (1 : EReal) + ((-p : ℝ) : EReal) = ((1 - p : ℝ) : EReal) by
    rw [← EReal.coe_one, ← EReal.coe_add, sub_eq_add_neg]]
  rw [show ((1 : ℝ) : EReal) - (p : EReal) = ((1 - p : ℝ) : EReal) by rw [← EReal.coe_sub]]
  rw [Ideal.div_coe hq', ← EReal.coe_mul]
  rw [show p * (1 / (1 - p)) = p / (1 - p) by ring]
  rw [Ideal.log_coe, Ideal.log_coe, Ideal.log_coe, if_neg (not_le.2 h0), if_neg (not_le.2 hq), if_neg (not_le.2 hd)]
  rw [← EReal.coe_sub, Real.log_div (ne_of_gt h0) hq']

/-- The two spellings of the logit agree on every clamped value. -/
theorem logit_clip (x : EReal) :
    Ideal.log (clip x) - Ideal.log1p (zero - clip x) = Ideal.log (Ideal.div (clip x) (one - clip x)) := by
  obtain ⟨p, hp, h0, h1⟩ := clip_real x
  rw [hp]
  exact logit_real p h0 h1

/-- The result: element (b, s, h) is the logistic function of logit(clamp(probs(b, s, h))) * scale(b, h) +
    bias(b, h), the logit in its difference-of-logarithms spelling. -/
def G (probs : (⟨3, ![4096, 200, 16]⟩ : Shape).Idx → EReal) (scale bias : (⟨2, ![4096, 16]⟩ : Shape).Idx → EReal) :
    (⟨3, ![4096, 200, 16]⟩ : Shape).Idx → EReal := fun i =>
  Ideal.logistic ((Ideal.log (clip (probs i)) - Ideal.log1p (zero - clip (probs i))) * scale (ix2 (i 0) (i 2))
    + bias (ix2 (i 0) (i 2)))

/-- A row of 3200 columns is 200 groups of 16: column q lies in group q / 16, -/
def grp (q : Fin 3200) : Fin 200 := ⟨q.val / 16, by have := q.isLt; omega⟩
/-- at place q mod 16 of its group. -/
def lane (q : Fin 3200) : Fin 16 := ⟨q.val % 16, Nat.mod_lt _ (by decide)⟩

/-- Place h of group s is column 16 s + h. -/
def col (s : Fin 200) (h : Fin 16) : Fin 3200 := ⟨s.val * 16 + h.val, by have := s.isLt; have := h.isLt; omega⟩

theorem col_val (s : Fin 200) (h : Fin 16) : (col s h).val = s.val * 16 + h.val := rfl
theorem grp_col (s : Fin 200) (h : Fin 16) : grp (col s h) = s :=
  Fin.ext (by show (s.val * 16 + h.val) / 16 = s.val; have := h.isLt; omega)
theorem lane_col (s : Fin 200) (h : Fin 16) : lane (col s h) = h :=
  Fin.ext (by show (s.val * 16 + h.val) % 16 = h.val; have := h.isLt; omega)

theorem grp_val (q : Fin 3200) : (grp q).val = q.val / 16 := rfl
theorem lane_val (q : Fin 3200) : (lane q).val = q.val % 16 := rfl

/-- The result with each batch row's 200 groups of 16 laid side by side, a [4096, 3200] array: column q of row b is
    element (b, q / 16, q mod 16). -/
def Gflat (probs : (⟨3, ![4096, 200, 16]⟩ : Shape).Idx → EReal) (scale bias : (⟨2, ![4096, 16]⟩ : Shape).Idx → EReal) :
    (⟨2, ![4096, 3200]⟩ : Shape).Idx → EReal := fun j =>
  G probs scale bias (ix3 (j 0) (grp (j 1)) (lane (j 1)))

/-- The flat result at column 16 s + h of row b is the result at (b, s, h). -/
theorem Gflat_col (probs : (⟨3, ![4096, 200, 16]⟩ : Shape).Idx → EReal) (scale bias : (⟨2, ![4096, 16]⟩ : Shape).Idx → EReal)
    (b : Fin 4096) (s : Fin 200) (h : Fin 16) :
    Gflat probs scale bias (ix2 b (col s h)) = G probs scale bias (ix3 b s h) := by
  show G probs scale bias (ix3 b (grp (col s h)) (lane (col s h))) = _
  rw [grp_col, lane_col]

end Cert.Logit

end
-- ==== Proof.Payload.lean ====
/-
  What the kernel body stores, read at one position of its block.

  The body works on a block of 1024 batch rows: the probabilities as a [1024, 3200] array (row b holds the 200
  groups of 16 side by side) and the per-row scale and bias as [1024, 16] arrays. It repeats each [1024, 16] array
  200 times along the columns, so that column q of the repeated array holds column q mod 16 of the original, and
  then works position by position. At position (r, q) it stores the logistic function of
  logit(clamp(probs(r, q))) * scale(r, q mod 16) + bias(r, q mod 16), the logit spelled as a difference of
  logarithms.
-/
import proofs.«181008_j30528627540712_2_alg».proof.Proof.Gen.KernelIdeal.Skeleton
import proofs.«181008_j30528627540712_2_alg».proof.Proof.Logit
import Idealize.ShloMosaic.Lib.Pipeline.Value
import Idealize.ShloMosaic.Lib.ValueIdx

noncomputable section

open Idealize.ShloMosaic Idealize.ShloMosaic.ValueIdx

namespace Cert.KernelIdeal.Body

open Cert.KernelIdeal Cert.KernelIdeal.Gen Cert.Logit

/-- 200 pieces of 16 columns fill 3200 columns. -/
theorem tile_fits {α : Type} (v : S1024x16.Idx → α) :
    Shape.Concatenates ((List.replicate 200 (⟨S1024x16, v⟩ : (s : Shape) × (s.Idx → α))).map (·.1)) S1024x3200 1 := by
  rw [List.map_replicate]
  show Shape.Concatenates (List.replicate 200 S1024x16) S1024x3200 1
  decide

/-- A [1024, 16] array repeated 200 times along the columns, read at (r, q), is the array at (r, q mod 16). -/
theorem tile_apply {α : Type} (v : S1024x16.Idx → α)
    (h : Shape.Concatenates ((List.replicate 200 (⟨S1024x16, v⟩ : (s : Shape) × (s.Idx → α))).map (·.1)) S1024x3200 1)
    (r : Fin 1024) (q : Fin 3200) :
    concatenate S1024x3200 1 (List.replicate 200 (⟨S1024x16, v⟩ : (s : Shape) × (s.Idx → α))) h (ix2 r q)
      = v (ix2 r (⟨q.val % 16, Nat.mod_lt _ (by decide)⟩ : Fin 16)) :=
  concatenate_replicate_apply (t := S1024x3200) (s₁ := S1024x16) (1 : Fin 2) 200 v h rfl (ix2 r q) (ix2 r (⟨q.val % 16, Nat.mod_lt _ (by decide)⟩ : Fin 16))
    rfl (fun b hb => match b, hb with
      | ⟨0, _⟩, _ => rfl
      | ⟨1, _⟩, hb => absurd rfl hb)

/-- The value the body stores at position (r, q) of its block, from the three blocks it loads. -/
theorem pay_apply (x0 : Vec Ideal S1024x3200 .f32) (x1 x2 : Vec Ideal S1024x16 .f32) (r : Fin 1024) (q : Fin 3200) :
    k0_pay1 (F := Ideal) x0 x1 x2 (ix2 r q)
      = Ideal.logistic ((Ideal.log (clip (x0 (ix2 r q))) - Ideal.log1p (zero - clip (x0 (ix2 r q))))
          * x1 (ix2 r (lane q)) + x2 (ix2 r (lane q))) := by
  show Ideal.logistic ((Ideal.log (min hi (max lo (shapeCast S1024x3200 x0 shapeCasts_S1024x3200_S1024x3200 (ix2 r q))))
        - Ideal.log1p (zero - min hi (max lo (shapeCast S1024x3200 x0 shapeCasts_S1024x3200_S1024x3200 (ix2 r q)))))
      * concatenate S1024x3200 1 (List.replicate 200 (⟨S1024x16, shapeCast S1024x16 x1 shapeCasts_S1024x16_S1024x16⟩ : (s : Shape) × (s.Idx → EReal)))
          (tile_fits _) (ix2 r q)
      + concatenate S1024x3200 1 (List.replicate 200 (⟨S1024x16, shapeCast S1024x16 x2 shapeCasts_S1024x16_S1024x16⟩ : (s : Shape) × (s.Idx → EReal)))
          (tile_fits _) (ix2 r q)) = _
  rw [tile_apply, tile_apply, shapeCast_self, shapeCast_self, shapeCast_self]
  rfl

/-- The same at any position y of the block: its row is y 0, its column y 1. -/
theorem pay_at (x0 : Vec Ideal S1024x3200 .f32) (x1 x2 : Vec Ideal S1024x16 .f32) (y : S1024x3200.Idx) :
    k0_pay1 (F := Ideal) x0 x1 x2 y
      = Ideal.logistic ((Ideal.log (clip (x0 y)) - Ideal.log1p (zero - clip (x0 y)))
          * x1 (ix2 (y 0) (lane (y 1))) + x2 (ix2 (y 0) (lane (y 1)))) := by
  obtain ⟨r, q, rfl⟩ : ∃ (r : Fin 1024) (q : Fin 3200), y = ix2 r q := ⟨y 0, y 1, eq_ix2 y⟩
  exact pay_apply x0 x1 x2 r q

end Cert.KernelIdeal.Body

end
-- ==== Proof.KernelValue.lean ====
/-
  What the kernel's result array holds after the run.

  Before the grid runs, the program lays the probabilities out as a [4096, 3200] array (row b holds its 200 groups
  of 16 side by side) and picks, for every batch row, a row of the scale table and a row of the bias table. The grid
  has four points; point t works on batch rows 1024 t to 1024 t + 1023: it reads that block of the flat
  probabilities and of the two picked-row arrays and writes the same rows of a [4096, 3200] result. The four blocks
  tile the result, so it ends holding the flat form of the result function; the program then folds each row back
  into 200 groups of 16.
-/
import proofs.«181008_j30528627540712_2_alg».proof.Proof.Gen.KernelIdeal.Frame
import proofs.«181008_j30528627540712_2_alg».proof.Proof.Payload
import Idealize.ShloMosaic.Lib.Pipeline.Value
import Idealize.ShloMosaic.Lib.StableHlo.Run
import Idealize.ShloMosaic.Lib.Tactic
import Idealize.ShloMosaic.PureOps.Ideal

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Body Cert.Logit

variable (m : (ℓ : Loc nD τ sig) → Buf (Elt Ideal) ℓ) (ρ : Dev nD → PrngReg)

/-! ## The arrays the grid reads -/

/-- The rows of a table picked by an array of row numbers, a negative number counted from the end: the program's
    own selection and gather, kept as one term. -/
def rowsOf (tbl : (⟨S100000x16, .f32⟩ : BufTy).Contents (Elt Ideal)) (idx : (⟨S4096, .i32⟩ : BufTy).Contents (Elt Ideal)) :
    (⟨S4096x16, .f32⟩ : BufTy).Contents (Elt Ideal) :=
  Host.gather gather_S100000x16_S4096x1_S4096x16_1_0_n_n_0_1_116 tbl
    (broadcastInDim S4096x1 ![0] bcast_S4096_S4096x1_0
      (select (cmpi .slt idx (broadcastInDim S4096 ![] bcast_S_S4096 (constantI S_ 32 0#32)))
        (addi idx (broadcastInDim S4096 ![] bcast_S_S4096 (constantI S_ 32 100000#32))) idx))

/-- The probabilities as launched. -/
abbrev probs (c : Dev nD) : (⟨S4096x200x16, .f32⟩ : BufTy).Contents (Elt Ideal) := m ((c : Thread nD τ).loc main_arg0)
/-- The picked scale rows. -/
abbrev scales (c : Dev nD) : (⟨S4096x16, .f32⟩ : BufTy).Contents (Elt Ideal) :=
  rowsOf (m ((c : Thread nD τ).loc main_arg1)) (m ((c : Thread nD τ).loc main_arg3))
/-- The picked bias rows. -/
abbrev biases (c : Dev nD) : (⟨S4096x16, .f32⟩ : BufTy).Contents (Elt Ideal) :=
  rowsOf (m ((c : Thread nD τ).loc main_arg2)) (m ((c : Thread nD τ).loc main_arg3))

/-- The first staged array is the probabilities laid flat. -/
theorem V_flat (c : Dev nD) : (V m c main_v14 : (⟨S4096x3200, .f32⟩ : BufTy).Contents (Elt Ideal))
    = shapeCast S4096x3200 (probs m c) shapeCasts_S4096x200x16_S4096x3200 := by
  show StableHlo.after hostOps0 (fun b => m (c, b)) (Proc.devRef .tc main_v14) = _
  after_results
  rfl

/-- The second staged array is the picked scale rows. -/
theorem V_scale (c : Dev nD) : (V m c main_v6 : (⟨S4096x16, .f32⟩ : BufTy).Contents (Elt Ideal)) = scales m c := by
  show StableHlo.after hostOps0 (fun b => m (c, b)) (Proc.devRef .tc main_v6) = _
  after_results
  rfl

/-- The third staged array is the picked bias rows. -/
theorem V_bias (c : Dev nD) : (V m c main_v13 : (⟨S4096x16, .f32⟩ : BufTy).Contents (Elt Ideal)) = biases m c := by
  show StableHlo.after hostOps0 (fun b => m (c, b)) (Proc.devRef .tc main_v13) = _
  after_results
  rfl

/-- The flat probabilities at (b, q) are the probabilities at (b, q / 16, q mod 16). -/
theorem flat_apply (P : (⟨S4096x200x16, .f32⟩ : BufTy).Contents (Elt Ideal)) (j : S4096x3200.Idx) :
    shapeCast S4096x3200 P shapeCasts_S4096x200x16_S4096x3200 j = P (ix3 (j 0) (grp (j 1)) (lane (j 1))) :=
  shapeCast_apply P _ j _ (by
    rw [Shape.rowMajor_val_three, Shape.rowMajor_val_two]
    show ((j 0).val * 200 + (j 1).val / 16) * 16 + (j 1).val % 16 = (j 0).val * 3200 + (j 1).val
    omega)

/-- A flat array folded back at (b, s, h) is the flat array at (b, 16 s + h). -/
theorem fold_apply (X : (⟨S4096x3200, .f32⟩ : BufTy).Contents (Elt Ideal)) (i : S4096x200x16.Idx) :
    shapeCast S4096x200x16 X shapeCasts_S4096x3200_S4096x200x16 i = X (ix2 (i 0) (col (i 1) (i 2))) :=
  shapeCast_apply X _ i _ (by
    rw [Shape.rowMajor_val_three, Shape.rowMajor_val_two]
    show (i 0).val * 3200 + ((i 1).val * 16 + (i 2).val) = ((i 0).val * 200 + (i 1).val) * 16 + (i 2).val
    omega)

/-- The flat result function folded back into 200 groups of 16 per row is the result function. -/
theorem fold_Gflat (P : (⟨S4096x200x16, .f32⟩ : BufTy).Contents (Elt Ideal)) (sc bi : (⟨S4096x16, .f32⟩ : BufTy).Contents (Elt Ideal)) :
    shapeCast S4096x200x16 (Gflat P sc bi) shapeCasts_S4096x3200_S4096x200x16 = G P sc bi := by
  funext i
  obtain ⟨b, s, h, rfl⟩ : ∃ (b : Fin 4096) (s : Fin 200) (h : Fin 16), i = ix3 b s h := ⟨i 0, i 1, i 2, eq_ix3 i⟩
  exact (fold_apply _ _).trans (Gflat_col _ _ _ b s h)

/-! ## A point's block of the result -/

theorem hz : (![0, 0] : Fin 2 → Nat) = fun _ => 0 := funext fun a => by fin_cases a <;> rfl

/-- The four windows move together: at point t each is at block row t's index and block column 0. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 3 :=
  (by decide +kernel : ∀ t : Fin grid0.N, _)

/-- Every block row of the result is some point's. -/
theorem idx_onto : ∀ q0 : Fin 4, ∃ t : Fin cfg0.N, win0_3.index t = ![q0.val, 0] :=
  (by decide +kernel : ∀ q0 : Fin 4, ∃ t : Fin grid0.N, win0_3.index t = ![q0.val, 0])

/-- What point t writes back is block t of the flat result function. -/
theorem flushed_eq (c : Dev nD) (t : Fin cfg0.N) :
    (dats m 0 c).flushed 3 t
      = ((cfg0.win 3).blk t).view.read (Elt Ideal) (Gflat (probs m c) (scales m c) (biases m c)) := by
  show (cfg0.win 3).cut (grid0.coords t) ((dats m 0 c).after 3 t) = _
  rw [after0_3]
  unfold out0_3
  rw [View.canon_unit_zero hz]
  simp only [View.ld_unit_zero (S := S1024x3200) hz, View.ld_unit_zero (S := S1024x16) hz]
  obtain ⟨e0, e1, e2, e3, e4, e5, e6, e7⟩ := idx_facts t
  funext y
  show k0_pay1 (F := Ideal) (iblk m c 0 t) (iblk m c 1 t) (iblk m c 2 t) y
    = Gflat (probs m c) (scales m c) (biases m c) (((cfg0.win 3).blk t).view.emb y)
  refine (pay_at (iblk m c 0 t) (iblk m c 1 t) (iblk m c 2 t) y).trans ?_
  have hemb0 : ((cfg0.win 0).blk t).view.emb y = ((cfg0.win 3).blk t).view.emb y := by
    funext a; apply Fin.ext
    match a with
    | ⟨0, _⟩ => show win0_0.index t (0 : Fin 2) * 1024 + 1 * (y 0).val = win0_3.index t (0 : Fin 2) * 1024 + 1 * (y 0).val; omega
    | ⟨1, _⟩ => show win0_0.index t (1 : Fin 2) * 3200 + 1 * (y 1).val = win0_3.index t (1 : Fin 2) * 3200 + 1 * (y 1).val; omega
  have h0 : iblk m c 0 t y = probs m c (ix3 ((((cfg0.win 3).blk t).view.emb y) 0)
      (grp ((((cfg0.win 3).blk t).view.emb y) 1)) (lane ((((cfg0.win 3).blk t).view.emb y) 1))) := by
    show (V m c main_v14 : (⟨S4096x3200, .f32⟩ : BufTy).Contents (Elt Ideal)) (((cfg0.win 0).blk t).view.emb y) = _
    rw [V_flat, hemb0]
    exact flat_apply _ _
  have h1 : iblk m c 1 t (ix2 (y 0) (lane (y 1)))
      = scales m c (ix2 ((((cfg0.win 3).blk t).view.emb y) 0) (lane ((((cfg0.win 3).blk t).view.emb y) 1))) := by
    show (V m c main_v6 : (⟨S4096x16, .f32⟩ : BufTy).Contents (Elt Ideal))
      (((cfg0.win 1).blk t).view.emb (ix2 (y 0) (lane (y 1)))) = _
    rw [V_scale]
    refine congrArg (scales m c) (funext fun a => Fin.ext ?_)
    match a with
    | ⟨0, _⟩ => show win0_1.index t (0 : Fin 2) * 1024 + 1 * (y 0).val = win0_3.index t (0 : Fin 2) * 1024 + 1 * (y 0).val; omega
    | ⟨1, _⟩ => show win0_1.index t (1 : Fin 2) * 16 + 1 * ((y 1).val % 16) = (win0_3.index t (1 : Fin 2) * 3200 + 1 * (y 1).val) % 16; omega
  have h2 : iblk m c 2 t (ix2 (y 0) (lane (y 1)))
      = biases m c (ix2 ((((cfg0.win 3).blk t).view.emb y) 0) (lane ((((cfg0.win 3).blk t).view.emb y) 1))) := by
    show (V m c main_v13 : (⟨S4096x16, .f32⟩ : BufTy).Contents (Elt Ideal))
      (((cfg0.win 2).blk t).view.emb (ix2 (y 0) (lane (y 1)))) = _
    rw [V_bias]
    refine congrArg (biases m c) (funext fun a => Fin.ext ?_)
    match a with
    | ⟨0, _⟩ => show win0_2.index t (0 : Fin 2) * 1024 + 1 * (y 0).val = win0_3.index t (0 : Fin 2) * 1024 + 1 * (y 0).val; omega
    | ⟨1, _⟩ => show win0_2.index t (1 : Fin 2) * 16 + 1 * ((y 1).val % 16) = (win0_3.index t (1 : Fin 2) * 3200 + 1 * (y 1).val) % 16; omega
  rw [h0, h1, h2]
  rfl

/-! ## The whole result array -/

/-- An index of the flat result is in point t's block iff its row is among the block's 1024 rows. -/
theorem mem_blk (t : Fin cfg0.N) (i : S4096x3200.Idx) :
    i ∈ ((cfg0.win 3).blk t).view.set ↔ ∀ a : Fin 2, win0_3.index t a * S1024x3200.size a ≤ (i a).val
      ∧ (i a).val < win0_3.index t a * S1024x3200.size a + S1024x3200.size a := by
  show i ∈ ((View.whole main_v15).slice (win0_3.rect t)).set ↔ _
  rw [View.set_slice_whole, Rect.mem_set_unit]
  exact Iff.rfl

/-- Row b of the flat result is in the block of the point whose block row is b / 1024. -/
theorem cover (i : S4096x3200.Idx) :
    ∃ t : Fin cfg0.N, (cfg0.win 3).flush t = true ∧ i ∈ ((cfg0.win 3).blk t).view.set := by
  have hi0 : (i 0).val < 4096 := (i 0).isLt
  have hi1 : (i 1).val < 3200 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 3200 ≤ (i 1).val ∧ (i 1).val < win0_3.index t (1 : Fin 2) * 3200 + 3200; omega

/-- After the four points the flat result array holds the flat result function. -/
theorem final (c : Dev nD) : (dats m 0 c).arrAt 3 cfg0.N = Gflat (probs m c) (scales m c) (biases m c) :=
  (dats m 0 c).arrAt_eq_of_cover 3 (Gflat (probs m c) (scales m c) (biases m c)) (fun t _ => flushed_eq m c t) cover

/-! ## Folding the rows back -/

/-- The program's result: the flat result array folded back into 200 groups of 16 per row is the result function. -/
theorem tail_eq (c : Dev nD) :
    (Pipeline.afterTail₀ cfgs (dats m) 0 (V0 m) [hostOps1] c main_v16 : (⟨S4096x200x16, .f32⟩ : BufTy).Contents (Elt Ideal))
      = G (probs m c) (scales m c) (biases m c) := by
  unfold Pipeline.afterTail₀
  show StableHlo.after hostOps1 _ (Proc.devRef .tc main_v16) = _
  after_results
  have hw : Pipeline.withArrays (cfgs 0).spec c (V0 m c) (fun w => (dats m 0 c).arrAt w (cfgs 0).N)
      (Proc.devRef .tc main_v15) = Gflat (probs m c) (scales m c) (biases m c) :=
    (Pipeline.withArrays_arr spec0 launch0.win.arr_inj c (V0 m c) (fun w => (dats m 0 c).arrAt w cfg0.N) 3).trans
      (final m c)
  rw [hw]
  exact fold_Gflat _ _ _

/-! ## The run -/

/-- Every execution of the kernel's program ends with its result at the result function of the probabilities and
    the picked rows, and with the four arguments as launched. -/
theorem run : θ_run defs (onTc (τ := τ) (main (F := Ideal))) ⟨m, fun _ => 0, ρ⟩ fun r => ∀ c : Dev nD,
      r.2.mem ((c.tc : Thread nD τ).loc main_v16) = G (probs m c) (scales m c) (biases m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefIsG.lean ====
/-
  The reference computes the result function.

  Read one operation at a time, the reference's result at (b, s, h) is 1 / (1 + exp (-(z))) with
  z = log (p / (1 - p)) * scale(b, h) + bias(b, h) and p the clamped probability at (b, s, h). The per-row
  scale and bias reach (b, s, h) through two broadcasts, [4096, 16] to [4096, 1, 16] to [4096, 200, 16], whose
  index maps compose to (b, s, h) ↦ (b, h). The quotient-of-one form is what the logistic function is on the
  extended reals, and the logit's quotient spelling equals its difference spelling on every clamped value.
-/
import proofs.«181008_j30528627540712_2_alg».proof.Proof.Gen.ReferenceIdeal.Read
import proofs.«181008_j30528627540712_2_alg».proof.Proof.Logit

noncomputable section

open Idealize.ShloMosaic Idealize.ShloMosaic.ValueIdx

namespace Cert.ReferenceIdeal.RefValue

open Cert.ReferenceIdeal Cert.ReferenceIdeal.Read Cert.Logit

/-- The scale row's two broadcasts compose to (b, s, h) ↦ (b, h). -/
theorem idx_scale (i : S4096x200x16.Idx) : idx_main_v12 (idx_main_v21 i) = ix2 (i 0) (i 2) :=
  funext fun a => Fin.ext (by match a with | ⟨0, _⟩ => rfl | ⟨1, _⟩ => rfl)

/-- The bias row's two broadcasts compose to (b, s, h) ↦ (b, h). -/
theorem idx_bias (i : S4096x200x16.Idx) : idx_main_v20 (idx_main_v23 i) = ix2 (i 0) (i 2) :=
  funext fun a => Fin.ext (by match a with | ⟨0, _⟩ => rfl | ⟨1, _⟩ => rfl)

/-- The reference's result, as a function of the probabilities, the two tables and the row numbers, is the result
    function of the probabilities and the two arrays of picked rows. -/
theorem result_eq (x0 : (⟨S4096x200x16, .f32⟩ : BufTy).Contents (Elt Ideal))
    (x1 x2 : (⟨S100000x16, .f32⟩ : BufTy).Contents (Elt Ideal)) (x3 : (⟨S4096, .i32⟩ : BufTy).Contents (Elt Ideal)) :
    val_main_v30 (F := Ideal) x0 x1 x2 x3
      = G x0 (val_main_v11 (F := Ideal) x1 x3) (val_main_v19 (F := Ideal) x2 x3) := by
  funext i
  simp only [val_main_v30_apply, val_main_v29_apply, val_main_cst_6_apply, val_main_v28_apply, val_main_v27_apply,
    val_main_cst_5_apply, val_main_v26_apply, val_main_v25_apply, val_main_v24_apply, val_main_v23_apply,
    val_main_v22_apply, val_main_v21_apply, val_main_v20_apply, val_main_v12_apply, val_main_v4_apply,
    val_main_v3_apply, val_main_v2_apply, val_main_v1_apply, val_main_cst_1_apply, val_main_v0_apply,
    val_main_call0_v4_apply, val_main_call0_v3_apply, val_main_cst_0_apply, val_main_call0_v2_apply,
    val_main_call0_v1_apply, val_main_call0_v0_apply, val_main_cst_apply, idx_scale, idx_bias]
  show Ideal.div one (one + Ideal.exp (-(Ideal.log (Ideal.div (clip (x0 i)) (one - clip (x0 i)))
      * val_main_v11 (F := Ideal) x1 x3 (ix2 (i 0) (i 2)) + val_main_v19 (F := Ideal) x2 x3 (ix2 (i 0) (i 2))))) = _
  rw [← logit_clip, one_eq']
  rfl

end Cert.ReferenceIdeal.RefValue

end
-- ==== Proof.lean ====
/-
  The kernel and the reference compute one function on the extended reals.

  Given probabilities probs of shape [4096, 200, 16], a scale table and a bias table of shape [100000, 16] and a row
  number per batch element, both programs pick the tables' rows by the same selection (a negative row number is
  counted from the end) and produce, at (b, s, h), the logistic function of
  logit(p) * scale_row(b, h) + bias_row(b, h), where p is probs(b, s, h) clamped between the single-precision
  numbers nearest 1e-7 and 1 - 1e-7.

  They differ in three ways, none of which changes the value. The kernel lays each batch row's 200 groups of 16
  side by side, works on blocks of 1024 batch rows, repeats the picked rows 200 times along a row instead of
  broadcasting them, and folds the rows back at the end: the same elements at renamed positions. The kernel writes
  the logit as log p - log (1 + (0 - p)) and the reference as log (p / (1 - p)): equal because p is a real number
  strictly between 0 and 1, whatever the input was. The kernel applies the logistic function as one operation and the
  reference spells it 1 / (1 + exp (-z)): on the extended reals that quotient is what the logistic function is.
  No step uses that the inputs are finite.

  The three programs' runs and unchanged arguments come from their generated frame and run modules; the word-level
  kernel and its idealization are the same text, so there is nothing to preserve beyond that.
-/
import proofs.«181008_j30528627540712_2_alg».proof.Defs
import proofs.«181008_j30528627540712_2_alg».proof.Proof.Gen.Kernel
import proofs.«181008_j30528627540712_2_alg».proof.Proof.Gen.Kernel.Skeleton
import proofs.«181008_j30528627540712_2_alg».proof.Proof.Gen.Kernel.Launch
import proofs.«181008_j30528627540712_2_alg».proof.Proof.Gen.Kernel.Points
import proofs.«181008_j30528627540712_2_alg».proof.Proof.Gen.Kernel.Frame
import proofs.«181008_j30528627540712_2_alg».proof.Proof.Gen.KernelIdeal
import proofs.«181008_j30528627540712_2_alg».proof.Proof.Gen.KernelIdeal.Skeleton
import proofs.«181008_j30528627540712_2_alg».proof.Proof.Gen.KernelIdeal.Launch
import proofs.«181008_j30528627540712_2_alg».proof.Proof.Gen.KernelIdeal.Points
import proofs.«181008_j30528627540712_2_alg».proof.Proof.Gen.KernelIdeal.Frame
import proofs.«181008_j30528627540712_2_alg».proof.Proof.Gen.ReferenceIdeal
import proofs.«181008_j30528627540712_2_alg».proof.Proof.Gen.Pre_finite_inputs
import proofs.«181008_j30528627540712_2_alg».proof.Proof.Gen.ReferenceIdeal.Run
import proofs.«181008_j30528627540712_2_alg».proof.Proof.Gen.ReferenceIdeal.Read
import proofs.«181008_j30528627540712_2_alg».proof.Proof.KernelValue
import proofs.«181008_j30528627540712_2_alg».proof.Proof.RefIsG
import Idealize.ShloMosaic.Adequacy
import Idealize.ShloMosaic.Init

noncomputable section

namespace Cert.Proof

open Idealize.ShloMosaic Idealize.SL.Sem

namespace Claims

/-- The word-level kernel runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- From memories that agree on the arguments, the kernel's result array and the reference's both end at the
    result function of the probabilities and the picked scale and bias rows. -/
theorem algebraic : Cert.algebraic_KernelIdeal_ReferenceIdeal := by
  intro m ρ m' ρ' _ hagree
  refine ⟨fun c => Cert.Logit.G (Cert.KernelIdeal.KValue.probs m c) (Cert.KernelIdeal.KValue.scales m c)
    (Cert.KernelIdeal.KValue.biases m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq,
    (hagree c).1, (hagree c).2.1, (hagree c).2.2.1, (hagree c).2.2.2]
  rfl

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, Claims.preserves, Claims.algebraic⟩

end Cert.Proof

end
